-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1200000 : Shape := ⟨2, ![2, 1200000]⟩
abbrev S2x500000 : Shape := ⟨2, ![2, 500000]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128x64 .f32) (main_arg8 : FVec F S64 .f32) (main_arg9 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : IVec S100000 32) (main_arg1 : IVec S2x1200000 32) (main_arg2 : IVec S2x500000 32) (main_arg3 : FVec F S100000x64 .f32) (main_arg4 : FVec F S64x128 .f32) (main_arg5 : FVec F S128 .f32) (main_arg6 : FVec F S64x128 .f32) (main_arg7 : FVec F S128x64 .f32) (main_arg8 : FVec F S64 .f32) (main_arg9 : FVec F S128x64 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_v13 main_v16
-- ==== Kernel.lean ====
abbrev S100000 : Shape := ⟨1, ![100000]⟩
abbrev S2x1200000 : Shape := ⟨2, ![2, 1200000]⟩
abbrev S2x500000 : Shape := ⟨2, ![2, 500000]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000x1 : Shape := ⟨2, ![100000, 1]⟩
abbrev S1200000x1 : Shape := ⟨2, ![1200000, 1]⟩
abbrev S1200000x64 : Shape := ⟨2, ![1200000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1200000x128 : Shape := ⟨2, ![1200000, 128]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 95
  | .vmem => 24
  | .smem => 0
  | _ => 0

abbrev bufTy : (tb : Table) → Fin (tcTables nBuf tb) → BufTy
  | .hbm, ⟨0, _⟩ => ⟨S100000, .i32⟩
  | .hbm, ⟨1, _⟩ => ⟨S2x1200000, .i32⟩
  | .hbm, ⟨2, _⟩ => ⟨S2x500000, .i32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000x64, .f32⟩
  | .hbm, ⟨32, _⟩ => ⟨S_, .f32⟩
  | .hbm, ⟨33, _⟩ => ⟨S100000x64, .f32⟩
  | .hbm, ⟨34, _⟩ => ⟨S1200000x1, .i32⟩
  | .hbm, ⟨35, _⟩ => ⟨S100000x64, .f32⟩
  | .hbm, ⟨36, _⟩ => ⟨S_, .f32⟩
  | .hbm, ⟨37, _⟩ => ⟨S1200000, .f32⟩
  | .hbm, ⟨38, _⟩ => ⟨S_, .f32⟩
  | .hbm, ⟨39, _⟩ => ⟨S100000, .f32⟩
  | .hbm, ⟨40, _⟩ => ⟨S1200000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1200000, .i32⟩
  | .hbm, ⟨55, _⟩ => ⟨S1200000, .i1⟩
  | .hbm, ⟨56, _⟩ => ⟨S_, .i32⟩
  | .hbm, ⟨57, _⟩ => ⟨S1200000, .i32⟩
  | .hbm, ⟨58, _⟩ => ⟨S1200000, .i32⟩
  | .hbm, ⟨59, _⟩ => ⟨S1200000, .i32⟩
  | .hbm, ⟨60, _⟩ => ⟨S1200000x1, .i32⟩
  | .hbm, ⟨61, _⟩ => ⟨S1200000x128, .f32⟩
  | .hbm, ⟨62, _⟩ => ⟨S_, .f32⟩
  | .hbm, ⟨63, _⟩ => ⟨S100000x128, .f32⟩
  | .hbm, ⟨64, _⟩ => ⟨S1200000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S1x64, .f32⟩
  | .hbm, ⟨70, _⟩ => ⟨S100000x64, .f32⟩
  | .hbm, ⟨71, _⟩ => ⟨S1x500000, .i32⟩
  | .hbm, ⟨72, _⟩ => ⟨S500000, .i32⟩
  | .hbm, ⟨73, _⟩ => ⟨S1x500000, .i32⟩
  | .hbm, ⟨74, _⟩ => ⟨S500000, .i32⟩
  | .hbm, ⟨75, _⟩ => ⟨S_, .i32⟩
  | .hbm, ⟨76, _⟩ => ⟨S500000, .i32⟩
  | .hbm, ⟨77, _⟩ => ⟨S500000, .i1⟩
  | .hbm, ⟨78, _⟩ => ⟨S_, .i32⟩
  | .hbm, ⟨79, _⟩ => ⟨S500000, .i32⟩
  | .hbm, ⟨80, _⟩ => ⟨S500000, .i32⟩
  | .hbm, ⟨81, _⟩ => ⟨S500000, .i32⟩
  | .hbm, ⟨82, _⟩ => ⟨S500000x1, .i32⟩
  | .hbm, ⟨83, _⟩ => ⟨S500000x64, .f32⟩
  | .hbm, ⟨84, _⟩ => ⟨S_, .i32⟩
  | .hbm, ⟨85, _⟩ => ⟨S500000, .i32⟩
  | .hbm, ⟨86, _⟩ => ⟨S500000, .i1⟩
  | .hbm, ⟨87, _⟩ => ⟨S_, .i32⟩
  | .hbm, ⟨88, _⟩ => ⟨S500000, .i32⟩
  | .hbm, ⟨89, _⟩ => ⟨S500000, .i32⟩
  | .hbm, ⟨90, _⟩ => ⟨S500000, .i32⟩
  | .hbm, ⟨91, _⟩ => ⟨S500000x1, .i32⟩
  | .hbm, ⟨92, _⟩ => ⟨S500000x64, .f32⟩
  | .hbm, ⟨93, _⟩ => ⟨S500000x1, .f32⟩
  | .hbm, ⟨94, _⟩ => ⟨S500000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S100000_S100000x1_0 : S100000.BroadcastsInDim S100000x1 (![0] : Fin 1 → Fin S100000x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  gather_S100000x64_S100000x1_S100000x64_1_0_n_n_0_1_164_wf : GatherDims.WF S100000x64 S100000x1 S100000x64 [1] [0] [] [0] [] 1 ![1, 64]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x128_S5000x128_1_0_0_1_n_n_wf : DotDims.WF S5000x64 S64x128 S5000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S5000x128_S128x64_S5000x64_1_0_0_1_n_n_wf : DotDims.WF S5000x128 S128x64 S5000x64 [1] [0] [0] [1] [] []
  gather_S100000x64_S500000x1_S500000x64_1_0_n_n_0_1_164_wf : GatherDims.WF S100000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S500000x64.size a
  hwx2_0 : ∀ i : grid2.Coords, EltTy.bits .f32 = 32 ∨ (Rect.block (s := S500000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S500000x64.size a
  hwx2_1 : ∀ i : grid2.Coords, EltTy.bits .f32 = 32 ∨ (Rect.block (s := S500000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S500000x1.size a
  hwx2_2 : ∀ i : grid2.Coords, EltTy.bits .f32 = 32 ∨ (Rect.block (s := S500000x1) S10000x1.size (cc2_transform_2 i) (hinb2_2 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

abbrev win0_0 : Pipeline.Window sig grid0 :=
  Pipeline.Window.ofSpec (Memref.whole main_v31) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000 : Shape := ⟨1, ![100000]⟩
abbrev S2x1200000 : Shape := ⟨2, ![2, 1200000]⟩
abbrev S2x500000 : Shape := ⟨2, ![2, 500000]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000x1 : Shape := ⟨2, ![100000, 1]⟩
abbrev S1200000x1 : Shape := ⟨2, ![1200000, 1]⟩
abbrev S1200000x64 : Shape := ⟨2, ![1200000, 64]⟩
abbrev S100000x128 : Shape := ⟨2, ![100000, 128]⟩
abbrev S1x128 : Shape := ⟨2, ![1, 128]⟩
abbrev S1200000x128 : Shape := ⟨2, ![1200000, 128]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1200000, .i32⟩
  | .hbm, ⟨2, _⟩ => ⟨S2x500000, .i32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000x64, .f32⟩
  | .hbm, ⟨32, _⟩ => ⟨S_, .f32⟩
  | .hbm, ⟨33, _⟩ => ⟨S100000x64, .f32⟩
  | .hbm, ⟨34, _⟩ => ⟨S1200000x1, .i32⟩
  | .hbm, ⟨35, _⟩ => ⟨S100000x64, .f32⟩
  | .hbm, ⟨36, _⟩ => ⟨S_, .f32⟩
  | .hbm, ⟨37, _⟩ => ⟨S1200000, .f32⟩
  | .hbm, ⟨38, _⟩ => ⟨S_, .f32⟩
  | .hbm, ⟨39, _⟩ => ⟨S100000, .f32⟩
  | .hbm, ⟨40, _⟩ => ⟨S1200000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1200000, .i32⟩
  | .hbm, ⟨59, _⟩ => ⟨S1200000, .i1⟩
  | .hbm, ⟨60, _⟩ => ⟨S_, .i32⟩
  | .hbm, ⟨61, _⟩ => ⟨S1200000, .i32⟩
  | .hbm, ⟨62, _⟩ => ⟨S1200000, .i32⟩
  | .hbm, ⟨63, _⟩ => ⟨S1200000, .i32⟩
  | .hbm, ⟨64, _⟩ => ⟨S1200000x1, .i32⟩
  | .hbm, ⟨65, _⟩ => ⟨S1200000x128, .f32⟩
  | .hbm, ⟨66, _⟩ => ⟨S_, .f32⟩
  | .hbm, ⟨67, _⟩ => ⟨S100000x128, .f32⟩
  | .hbm, ⟨68, _⟩ => ⟨S1200000x1, .i32⟩
  | .hbm, ⟨69, _⟩ => ⟨S100000x128, .f32⟩
  | .hbm, ⟨70, _⟩ => ⟨S_, .f32⟩
  | .hbm, ⟨71, _⟩ => ⟨S1200000, .f32⟩
  | .hbm, ⟨72, _⟩ => ⟨S_, .f32⟩
  | .hbm, ⟨73, _⟩ => ⟨S100000, .f32⟩
  | .hbm, ⟨74, _⟩ => ⟨S1200000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x500000, .i32⟩
  | .hbm, ⟨89, _⟩ => ⟨S500000, .i32⟩
  | .hbm, ⟨90, _⟩ => ⟨S_, .i32⟩
  | .hbm, ⟨91, _⟩ => ⟨S500000, .i32⟩
  | .hbm, ⟨92, _⟩ => ⟨S500000, .i1⟩
  | .hbm, ⟨93, _⟩ => ⟨S_, .i32⟩
  | .hbm, ⟨94, _⟩ => ⟨S500000, .i32⟩
  | .hbm, ⟨95, _⟩ => ⟨S500000, .i32⟩
  | .hbm, ⟨96, _⟩ => ⟨S500000, .i32⟩
  | .hbm, ⟨97, _⟩ => ⟨S500000x1, .i32⟩
  | .hbm, ⟨98, _⟩ => ⟨S500000x64, .f32⟩
  | .hbm, ⟨99, _⟩ => ⟨S1x500000, .i32⟩
  | .hbm, ⟨100, _⟩ => ⟨S500000, .i32⟩
  | .hbm, ⟨101, _⟩ => ⟨S_, .i32⟩
  | .hbm, ⟨102, _⟩ => ⟨S500000, .i32⟩
  | .hbm, ⟨103, _⟩ => ⟨S500000, .i1⟩
  | .hbm, ⟨104, _⟩ => ⟨S_, .i32⟩
  | .hbm, ⟨105, _⟩ => ⟨S500000, .i32⟩
  | .hbm, ⟨106, _⟩ => ⟨S500000, .i32⟩
  | .hbm, ⟨107, _⟩ => ⟨S500000, .i32⟩
  | .hbm, ⟨108, _⟩ => ⟨S500000x1, .i32⟩
  | .hbm, ⟨109, _⟩ => ⟨S500000x64, .f32⟩
  | .hbm, ⟨110, _⟩ => ⟨S500000x64, .f32⟩
  | .hbm, ⟨111, _⟩ => ⟨S_, .f32⟩
  | .hbm, ⟨112, _⟩ => ⟨S500000, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S100000_S100000x1_0 : S100000.BroadcastsInDim S100000x1 (![0] : Fin 1 → Fin S100000x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  gather_S100000x64_S100000x1_S100000x64_1_0_n_n_0_1_164_wf : GatherDims.WF S100000x64 S100000x1 S100000x64 [1] [0] [] [0] [] 1 ![1, 64]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x128_S100000x128_1_0_0_1_n_n_wf : DotDims.WF S100000x64 S64x128 S100000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S100000x128_S128x64_S100000x64_1_0_0_1_n_n_wf : DotDims.WF S100000x128 S128x64 S100000x64 [1] [0] [0] [1] [] []
  gather_S100000x64_S500000x1_S500000x64_1_0_n_n_0_1_164_wf : GatherDims.WF S100000x64 S500000x1 S500000x64 [1] [0] [] [0] [] 1 ![1, 64]

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

class Facts : Prop extends Facts₀ where

variable [Facts]
-- ==== Proof.KRun.lean ====
/-
  The kernel program's run with its RESULT kept.

  @main is seven segments: four stretches of host operations and, between them, three tiled regions. The buffer
  contents at each segment boundary are a fold from the launch memory (a host stretch applies its operations; a
  region replaces its arrays by what its write-backs leave). Every weakly fair execution terminates without a
  fault, and the final state holds, at every unscoped buffer, the last fold's contents: the argument arrays as
  launched, and the result buffer at the last fold's value of it.
-/
import proofs.«172000_j70763881169321_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting; the final
    state has the result buffer at the last boundary's contents of it and the argument arrays as launched: the
    segments' launch, the last thread state read against the final state at every unscoped buffer. -/
theorem run : θ_run defs (onTc (τ := τ) (main (F := F))) ⟨m, fun _ => 0, ρ⟩ (fun r => ∀ c : Dev nD,
      r.2.mem ((c.tc : Thread nD τ).loc main_v68) = W7 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v68 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.KRun

end
-- ==== Proof.Spec.lean ====
/-
  The mathematics both programs compute, entry by entry, over the extended reals.

  One graph-convolution layer combines, for node p and output feature q, the aggregated neighbour features A and
  the node's own features H through two weight matrices and a bias row:
      (∑ₖ A(p,k)·Wl(k,q) + ∑ₖ H(p,k)·Wr(k,q)) + b(0,q).
  The first layer clamps this from below at the value of the float word 0 (a rectifier), the second does not.
  The decoder scores a pair of nodes by the inner product of their two embedding rows.
-/
import Idealize.ShloMosaic.PureOps.Ideal
import Idealize.ShloMosaic.Lib.ValueIdx

noncomputable section

open scoped BigOperators

namespace Cert.Sage

open Idealize.ShloMosaic Idealize.ShloMosaic.ValueIdx

/-- A matrix of extended reals with `a` rows and `b` columns. -/
abbrev Mat (a b : Nat) : Type := (⟨2, ![a, b]⟩ : Shape).Idx → EReal

/-- Entry (p, q) of `A·Wl + H·Wr` plus the bias row: each product as the sum over the K shared coordinates. -/
def combineAt {N K C : Nat} (A H : Mat N K) (Wl Wr : Mat K C) (b : Mat 1 C) (p : Fin N) (q : Fin C) : EReal :=
  ((∑ k : Fin K, A (ix2 p k) * Wl (ix2 k q)) + (∑ k : Fin K, H (ix2 p k) * Wr (ix2 k q))) + b (ix2 (0 : Fin 1) q)

/-- The first layer on all 100000 nodes: 64 input features, 128 output features, clamped below at the float word 0. -/
def layer1 (A H : Mat 100000 64) (Wl Wr : Mat 64 128) (b : Mat 1 128) : Mat 100000 128 :=
  fun i => max (combineAt A H Wl Wr b (i 0) (i 1)) (Ideal.ofBits .f32 0x00000000#32)

/-- The second layer on all 100000 nodes: 128 input features, 64 output features, no clamp. -/
def layer2 (A H : Mat 100000 128) (Wl Wr : Mat 128 64) (b : Mat 1 64) : Mat 100000 64 :=
  fun i => combineAt A H Wl Wr b (i 0) (i 1)

/-- The decoder on 500000 pairs: the inner product of row l of `za` with row l of `zb`, kept as a column. -/
def dots (za zb : Mat 500000 64) : Mat 500000 1 :=
  fun i => ∑ k : Fin 64, za (ix2 (i 0) k) * zb (ix2 (i 0) k)

end Cert.Sage

end
-- ==== Proof.KVal.lean ====
/-
  The value the kernel program computes, as one composed function of its argument arrays.

  Around its three tiled regions the program gathers and sums on the host: node features are looked up by node id,
  each edge carries its source node's features to its destination node where they are summed, and the sums are
  scaled by the reciprocal of max(in-degree, 1). Each stage below is one host operation (or a short run of them)
  applied to the stages before it; the two layers and the decoder stand where the three regions are.
-/
import proofs.«172000_j70763881169321_1_alg».proof.Proof.Gen.KernelIdeal
import proofs.«172000_j70763881169321_1_alg».proof.Proof.Spec

noncomputable section

namespace Cert.KernelIdeal.KVal

open Cert.KernelIdeal Cert.KernelIdeal.Gen Idealize.ShloMosaic Cert.Sage

/-- The contents of an integer tensor of 32-bit words. -/
abbrev Words (s : Shape) : Type := (⟨s, .i32⟩ : BufTy).Contents (Elt Ideal)

/-- A float word splat over a shape: zero and one are the only two used. -/
abbrev zeroWord : FVec Ideal S_ .f32 := constant S_ .f32 0x00000000#32
abbrev oneWord : FVec Ideal S_ .f32 := constant S_ .f32 0x3F800000#32

/-- Node ids with a negative id shifted up by the number of nodes, one index word per row. -/
def nodeIdx (x0 : Words S100000) : Words S100000x1 :=
  broadcastInDim S100000x1 ![0] bcast_S100000_S100000x1_0
    (select (cmpi .slt x0 (broadcastInDim S100000 ![] bcast_S_S100000 (constantI S_ 32 0#32)))
      (addi x0 (broadcastInDim S100000 ![] bcast_S_S100000 (constantI S_ 32 100000#32))) x0)

/-- The looked-up node features: row n is the embedding row of node id n. -/
def h0 (x0 : Words S100000) (x3 : FVec Ideal S100000x64 .f32) : FVec Ideal S100000x64 .f32 :=
  Host.gather gather_S100000x64_S100000x1_S100000x64_1_0_n_n_0_1_164 x3 (nodeIdx x0)

/-- The edges' source nodes (row 0 of the edge list) and destination nodes (row 1). -/
def src (x1 : Words S2x1200000) : Words S1200000 :=
  shapeCast _ (extractStridedSlice S1x1200000 ![0, 0] x1 slices_S2x1200000_S1x1200000_0_0) shapeCasts_S1x1200000_S1200000
def dst (x1 : Words S2x1200000) : Words S1200000 :=
  shapeCast _ (extractStridedSlice S1x1200000 ![1, 0] x1 slices_S2x1200000_S1x1200000_1_0) shapeCasts_S1x1200000_S1200000

/-- Source nodes as gather indices (a negative id shifted up), destination nodes as scatter indices. -/
def srcIdx (x1 : Words S2x1200000) : Words S1200000x1 :=
  broadcastInDim S1200000x1 ![0] bcast_S1200000_S1200000x1_0
    (select (cmpi .slt (src x1) (broadcastInDim S1200000 ![] bcast_S_S1200000 (constantI S_ 32 0#32)))
      (addi (src x1) (broadcastInDim S1200000 ![] bcast_S_S1200000 (constantI S_ 32 100000#32))) (src x1))
def dstIdx (x1 : Words S2x1200000) : Words S1200000x1 :=
  broadcastInDim S1200000x1 ![0] bcast_S1200000_S1200000x1_0 (dst x1)

/-- Per destination node, the sum over its incoming edges of the source node's 64 features. -/
def sum64 (h : FVec Ideal S100000x64 .f32) (x1 : Words S2x1200000) : FVec Ideal S100000x64 .f32 :=
  Host.scatterAdd scatter_S100000x64_S1200000x1_S1200000x64_1_0_0_1
    (broadcastInDim S100000x64 ![] bcast_S_S100000x64 zeroWord) (dstIdx x1)
    (Host.gather gather_S100000x64_S1200000x1_S1200000x64_1_0_n_n_0_1_164 h (srcIdx x1))

/-- The same for 128 features. -/
def sum128 (h : FVec Ideal S100000x128 .f32) (x1 : Words S2x1200000) : FVec Ideal S100000x128 .f32 :=
  Host.scatterAdd scatter_S100000x128_S1200000x1_S1200000x128_1_0_0_1
    (broadcastInDim S100000x128 ![] bcast_S_S100000x128 zeroWord) (dstIdx x1)
    (Host.gather gather_S100000x128_S1200000x1_S1200000x128_1_0_n_n_0_1_1128 h (srcIdx x1))

/-- max(in-degree, 1) per node: the count of incoming edges as a sum of ones, clamped below at one. -/
def degMax (x1 : Words S2x1200000) : FVec Ideal S100000 .f32 :=
  maximumf
    (Host.scatterAdd scatter_S100000_S1200000x1_S1200000_n_0_0_1
      (broadcastInDim S100000 ![] bcast_S_S100000 zeroWord) (dstIdx x1)
      (broadcastInDim S1200000 ![] bcast_S_S1200000 oneWord))
    (broadcastInDim S100000 ![] bcast_S_S100000 oneWord)

/-- Its reciprocal, 1 / max(in-degree, 1). -/
def invDeg (x1 : Words S2x1200000) : FVec Ideal S100000 .f32 :=
  Host.divf (broadcastInDim S100000 ![] bcast_S_S100000 oneWord) (degMax x1)

/-- The mean of the neighbours' 64 features: the sum times the reciprocal, the reciprocal spread along the row. -/
def agg0 (x0 : Words S100000) (x1 : Words S2x1200000) (x3 : FVec Ideal S100000x64 .f32) : FVec Ideal S100000x64 .f32 :=
  mulf (sum64 (h0 x0 x3) x1)
    (broadcastInDim S100000x64 ![0, 1] bcast_S100000x1_S100000x64_0_1
      (broadcastInDim S100000x1 ![0] bcast_S100000_S100000x1_0 (invDeg x1)))

/-- The first layer's output. -/
def h1 (x0 : Words S100000) (x1 : Words S2x1200000) (x3 : FVec Ideal S100000x64 .f32) (x4 : FVec Ideal S64x128 .f32)
    (x5 : FVec Ideal S128 .f32) (x6 : FVec Ideal S64x128 .f32) : FVec Ideal S100000x128 .f32 :=
  layer1 (agg0 x0 x1 x3) (h0 x0 x3) x4 x6 (shapeCast S1x128 x5 shapeCasts_S128_S1x128)

/-- The mean of the neighbours' 128 first-layer features. -/
def agg1 (x0 : Words S100000) (x1 : Words S2x1200000) (x3 : FVec Ideal S100000x64 .f32) (x4 : FVec Ideal S64x128 .f32)
    (x5 : FVec Ideal S128 .f32) (x6 : FVec Ideal S64x128 .f32) : FVec Ideal S100000x128 .f32 :=
  mulf (sum128 (h1 x0 x1 x3 x4 x5 x6) x1)
    (broadcastInDim S100000x128 ![0, 1] bcast_S100000x1_S100000x128_0_1
      (broadcastInDim S100000x1 ![0] bcast_S100000_S100000x1_0 (invDeg x1)))

/-- The second layer's output: the node embeddings. -/
def z (x0 : Words S100000) (x1 : Words S2x1200000) (x3 : FVec Ideal S100000x64 .f32) (x4 : FVec Ideal S64x128 .f32)
    (x5 : FVec Ideal S128 .f32) (x6 : FVec Ideal S64x128 .f32) (x7 : FVec Ideal S128x64 .f32) (x8 : FVec Ideal S64 .f32)
    (x9 : FVec Ideal S128x64 .f32) : FVec Ideal S100000x64 .f32 :=
  layer2 (agg1 x0 x1 x3 x4 x5 x6) (h1 x0 x1 x3 x4 x5 x6) x7 x9 (shapeCast S1x64 x8 shapeCasts_S64_S1x64)

/-- The two endpoints of each pair to score (rows 0 and 1 of the pair list), then as gather indices. -/
def endA (x2 : Words S2x500000) : Words S500000 :=
  shapeCast _ (extractStridedSlice S1x500000 ![0, 0] x2 slices_S2x500000_S1x500000_0_0) shapeCasts_S1x500000_S500000
def endB (x2 : Words S2x500000) : Words S500000 :=
  shapeCast _ (extractStridedSlice S1x500000 ![1, 0] x2 slices_S2x500000_S1x500000_1_0) shapeCasts_S1x500000_S500000
def idxA (x2 : Words S2x500000) : Words S500000x1 :=
  broadcastInDim S500000x1 ![0] bcast_S500000_S500000x1_0
    (select (cmpi .slt (endA x2) (broadcastInDim S500000 ![] bcast_S_S500000 (constantI S_ 32 0#32)))
      (addi (endA x2) (broadcastInDim S500000 ![] bcast_S_S500000 (constantI S_ 32 100000#32))) (endA x2))
def idxB (x2 : Words S2x500000) : Words S500000x1 :=
  broadcastInDim S500000x1 ![0] bcast_S500000_S500000x1_0
    (select (cmpi .slt (endB x2) (broadcastInDim S500000 ![] bcast_S_S500000 (constantI S_ 32 0#32)))
      (addi (endB x2) (broadcastInDim S500000 ![] bcast_S_S500000 (constantI S_ 32 100000#32))) (endB x2))

/-- The embedding rows of each pair's two endpoints. -/
def rowsOf (zz : FVec Ideal S100000x64 .f32) (ix : Words S500000x1) : FVec Ideal S500000x64 .f32 :=
  Host.gather gather_S100000x64_S500000x1_S500000x64_1_0_n_n_0_1_164 zz ix

/-- The program's result: each pair's inner product, the column read back as a vector. -/
def result (x0 : Words S100000) (x1 : Words S2x1200000) (x2 : Words S2x500000) (x3 : FVec Ideal S100000x64 .f32)
    (x4 : FVec Ideal S64x128 .f32) (x5 : FVec Ideal S128 .f32) (x6 : FVec Ideal S64x128 .f32) (x7 : FVec Ideal S128x64 .f32)
    (x8 : FVec Ideal S64 .f32) (x9 : FVec Ideal S128x64 .f32) : FVec Ideal S500000 .f32 :=
  shapeCast S500000
    (dots (rowsOf (z x0 x1 x3 x4 x5 x6 x7 x8 x9) (idxA x2)) (rowsOf (z x0 x1 x3 x4 x5 x6 x7 x8 x9) (idxB x2)))
    shapeCasts_S500000x1_S500000

end Cert.KernelIdeal.KVal

end
-- ==== Proof.KStages.lean ====
/-
  The kernel program's buffers, boundary by boundary, as functions of the argument arrays.

  The run's fold starts from the launch memory. The first stretch of host operations leaves the looked-up node
  features, the edges' endpoints, the reciprocal in-degrees and the first layer's aggregated input; the first region
  leaves the first layer's output; the second stretch the second layer's aggregated input; the second region the
  node embeddings; the third stretch the embedding rows of each pair's endpoints; the third region the pairs' inner
  products as a column; the last operation reads the column back as a vector. Each fact below reads one buffer at
  one boundary; a region's array is read through that region's value (a hypothesis here, proved beside this module).
-/
import proofs.«172000_j70763881169321_1_alg».proof.Proof.Gen.KernelIdeal.Frame
import proofs.«172000_j70763881169321_1_alg».proof.Proof.KVal
import Idealize.ShloMosaic.Lib.StableHlo.Run

set_option maxRecDepth 16384

noncomputable section

namespace Cert.KernelIdeal.KStages

open Cert.KernelIdeal Cert.KernelIdeal.Gen Cert.Sage
open Idealize.ShloMosaic Idealize.ShloMosaic.TcCoe Idealize.SL.Sem Idealize.ShloMosaic.StableHlo

/-- What each region's output array holds after the region, for any contents `V` at its entry: the layer or the
    decoder of the arrays its input windows stage. -/
def Region0Value : Prop := ∀ (V : (c : Dev nD) → (b : Ref sig .tc) → Buf (Elt Ideal) ((c : Thread nD τ).loc b)) (c : Dev nD),
  (dat0 (F := Ideal) V c).arrAt 5 cfg0.N = layer1 (V c main_v31) (V c main_v10) (V c main_arg4) (V c main_arg6) (V c main_v32)
def Region1Value : Prop := ∀ (V : (c : Dev nD) → (b : Ref sig .tc) → Buf (Elt Ideal) ((c : Thread nD τ).loc b)) (c : Dev nD),
  (dat1 (F := Ideal) V c).arrAt 5 cfg1.N = layer2 (V c main_v46) (V c main_v33) (V c main_arg7) (V c main_arg9) (V c main_v47)
def Region2Value : Prop := ∀ (V : (c : Dev nD) → (b : Ref sig .tc) → Buf (Elt Ideal) ((c : Thread nD τ).loc b)) (c : Dev nD),
  (dat2 (F := Ideal) V c).arrAt 2 cfg2.N = dots (V c main_v59) (V c main_v66)

variable (m : (ℓ : Loc nD τ sig) → Buf (Elt Ideal) ℓ) (ρ : Dev nD → PrngReg) (c : Dev nD)

/-! ## After the first stretch of host operations -/

theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl
theorem W1_arg9 : W1 m ρ c (Proc.devRef .tc main_arg9) = m ((c : Thread nD τ).loc main_arg9) := by
  show StableHlo.after hostOps0 (W0 m ρ c) (Proc.devRef .tc main_arg9) = _
  after_results_simp <;> rfl
theorem W1_v1 : W1 m ρ c (Proc.devRef .tc main_v1) = KVal.src (m ((c : Thread nD τ).loc main_arg1)) := by
  show StableHlo.after hostOps0 (W0 m ρ c) (Proc.devRef .tc main_v1) = _
  after_results_simp <;> rfl
theorem W1_v3 : W1 m ρ c (Proc.devRef .tc main_v3) = KVal.dst (m ((c : Thread nD τ).loc main_arg1)) := by
  show StableHlo.after hostOps0 (W0 m ρ c) (Proc.devRef .tc main_v3) = _
  after_results_simp <;> rfl
theorem W1_v28 : W1 m ρ c (Proc.devRef .tc main_v28) = KVal.invDeg (m ((c : Thread nD τ).loc main_arg1)) := by
  show StableHlo.after hostOps0 (W0 m ρ c) (Proc.devRef .tc main_v28) = _
  after_results_simp <;> rfl
theorem W1_v10 : W1 m ρ c (Proc.devRef .tc main_v10) = KVal.h0 (m ((c : Thread nD τ).loc main_arg0)) (m ((c : Thread nD τ).loc main_arg3)) := by
  show StableHlo.after hostOps0 (W0 m ρ c) (Proc.devRef .tc main_v10) = _
  after_results_simp <;> rfl
theorem W1_v31 : W1 m ρ c (Proc.devRef .tc main_v31) = KVal.agg0 (m ((c : Thread nD τ).loc main_arg0)) (m ((c : Thread nD τ).loc main_arg1)) (m ((c : Thread nD τ).loc main_arg3)) := by
  show StableHlo.after hostOps0 (W0 m ρ c) (Proc.devRef .tc main_v31) = _
  after_results_simp <;> rfl
theorem W1_v32 : W1 m ρ c (Proc.devRef .tc main_v32) = (shapeCast S1x128 (m ((c : Thread nD τ).loc main_arg5)) shapeCasts_S128_S1x128 : FVec Ideal S1x128 .f32) := by
  show StableHlo.after hostOps0 (W0 m ρ c) (Proc.devRef .tc main_v32) = _
  after_results_simp <;> rfl

/-! ## After the first region: its output is the first layer; nothing else moved -/

theorem W2_arg2 : W2 m ρ c (Proc.devRef .tc main_arg2) = m ((c : Thread nD τ).loc main_arg2) :=
  (W2_of_ne m ρ c main_arg2 (by decide)).trans (W1_arg2 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_v1 : W2 m ρ c (Proc.devRef .tc main_v1) = KVal.src (m ((c : Thread nD τ).loc main_arg1)) :=
  (W2_of_ne m ρ c main_v1 (by decide)).trans (W1_v1 m ρ c)
theorem W2_v3 : W2 m ρ c (Proc.devRef .tc main_v3) = KVal.dst (m ((c : Thread nD τ).loc main_arg1)) :=
  (W2_of_ne m ρ c main_v3 (by decide)).trans (W1_v3 m ρ c)
theorem W2_v28 : W2 m ρ c (Proc.devRef .tc main_v28) = KVal.invDeg (m ((c : Thread nD τ).loc main_arg1)) :=
  (W2_of_ne m ρ c main_v28 (by decide)).trans (W1_v28 m ρ c)

theorem W2_v33 (h0 : Region0Value) : W2 m ρ c (Proc.devRef .tc main_v33) = KVal.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W2 m ρ c (Proc.devRef .tc main_v33)
    _ = (dat0 (F := Ideal) (V1 m ρ) c).arrAt 5 cfg0.N := W2_arr m ρ c 5
    _ = layer1 (V1 m ρ c main_v31) (V1 m ρ c main_v10) (V1 m ρ c main_arg4) (V1 m ρ c main_arg6) (V1 m ρ c main_v32) := h0 (V1 m ρ) c
    _ = KVal.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
        unfold KVal.h1
        exact congr (congr (congr (congr (congrArg layer1 (W1_v31 m ρ c)) (W1_v10 m ρ c)) (W1_arg4 m ρ c)) (W1_arg6 m ρ c)) (W1_v32 m ρ c)

/-! ## After the second stretch -/

theorem W3_arg2 : W3 m ρ c (Proc.devRef .tc main_arg2) = m ((c : Thread nD τ).loc main_arg2) := by
  show StableHlo.after hostOps1 (W2 m ρ c) (Proc.devRef .tc main_arg2) = _
  after_results_simp
  exact W2_arg2 m ρ c
theorem W3_arg7 : W3 m ρ c (Proc.devRef .tc main_arg7) = m ((c : Thread nD τ).loc main_arg7) := by
  show StableHlo.after hostOps1 (W2 m ρ c) (Proc.devRef .tc main_arg7) = _
  after_results_simp
  exact W2_arg7 m ρ c
theorem W3_arg9 : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_v33 (h0 : Region0Value) : W3 m ρ c (Proc.devRef .tc main_v33) = KVal.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v33) = _
  after_results_simp
  exact W2_v33 m ρ c h0
theorem W3_v47 : W3 m ρ c (Proc.devRef .tc main_v47)
    = (shapeCast S1x64 (m ((c : Thread nD τ).loc main_arg8)) shapeCasts_S64_S1x64 : FVec Ideal S1x64 .f32) := by
  show StableHlo.after hostOps1 (W2 m ρ c) (Proc.devRef .tc main_v47) = _
  after_results_simp
  rw [W2_arg8 m ρ c]
  rfl
theorem W3_v46 (h0 : Region0Value) : W3 m ρ c (Proc.devRef .tc main_v46) = KVal.agg1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v46) = _
  after_results_simp
  rw [W2_v33 m ρ c h0, W2_v1 m ρ c, W2_v3 m ρ c, W2_v28 m ρ c]
  rfl

/-! ## After the second region: its output is the node embeddings -/

theorem W4_arg2 : W4 m ρ c (Proc.devRef .tc main_arg2) = m ((c : Thread nD τ).loc main_arg2) :=
  (W4_of_ne m ρ c main_arg2 (by decide)).trans (W3_arg2 m ρ c)

theorem W4_v48 (h0 : Region0Value) (h1 : Region1Value) : W4 m ρ c (Proc.devRef .tc main_v48) = KVal.z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  calc W4 m ρ c (Proc.devRef .tc main_v48)
    _ = (dat1 (F := Ideal) (V3 m ρ) c).arrAt 5 cfg1.N := W4_arr m ρ c 5
    _ = layer2 (V3 m ρ c main_v46) (V3 m ρ c main_v33) (V3 m ρ c main_arg7) (V3 m ρ c main_arg9) (V3 m ρ c main_v47) := h1 (V3 m ρ) c
    _ = KVal.z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
        unfold KVal.z
        exact congr (congr (congr (congr (congrArg layer2 (W3_v46 m ρ c h0)) (W3_v33 m ρ c h0)) (W3_arg7 m ρ c)) (W3_arg9 m ρ c)) (W3_v47 m ρ c)

/-! ## After the third stretch: the endpoints' embedding rows -/

theorem W5_v59 (h0 : Region0Value) (h1 : Region1Value) : W5 m ρ c (Proc.devRef .tc main_v59)
    = KVal.rowsOf (KVal.z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (KVal.idxA (m ((c : Thread nD τ).loc main_arg2))) := by
  show StableHlo.after hostOps2 (W4 m ρ c) (Proc.devRef .tc main_v59) = _
  after_results_simp
  rw [W4_v48 m ρ c h0 h1, W4_arg2 m ρ c]
  rfl
theorem W5_v66 (h0 : Region0Value) (h1 : Region1Value) : W5 m ρ c (Proc.devRef .tc main_v66)
    = KVal.rowsOf (KVal.z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (KVal.idxB (m ((c : Thread nD τ).loc main_arg2))) := by
  show StableHlo.after hostOps2 (W4 m ρ c) (Proc.devRef .tc main_v66) = _
  after_results_simp
  rw [W4_v48 m ρ c h0 h1, W4_arg2 m ρ c]
  rfl

/-! ## After the third region, and the result -/

theorem W6_v67 (h0 : Region0Value) (h1 : Region1Value) (h2 : Region2Value) : W6 m ρ c (Proc.devRef .tc main_v67)
    = dots (KVal.rowsOf (KVal.z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (KVal.idxA (m ((c : Thread nD τ).loc main_arg2)))) (KVal.rowsOf (KVal.z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (KVal.idxB (m ((c : Thread nD τ).loc main_arg2)))) :=
  calc W6 m ρ c (Proc.devRef .tc main_v67)
    _ = (dat2 (F := Ideal) (V5 m ρ) c).arrAt 2 cfg2.N := W6_arr m ρ c 2
    _ = dots (V5 m ρ c main_v59) (V5 m ρ c main_v66) := h2 (V5 m ρ) c
    _ = _ := congr (congrArg dots (W5_v59 m ρ c h0 h1)) (W5_v66 m ρ c h0 h1)

/-- The result buffer at the last boundary is the kernel's composed value of the argument arrays. -/
theorem W7_v68 (h0 : Region0Value) (h1 : Region1Value) (h2 : Region2Value) : W7 m ρ c (Proc.devRef .tc main_v68)
    = KVal.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v68) = _
  after_results_simp
  rw [W6_v67 m ρ c h0 h1 h2]
  rfl

end Cert.KernelIdeal.KStages

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.Region0.lean ====
/-
  The first layer's region, as a value: the output array after the region is the first layer of the arrays the region
  finds, entry by entry.

  The body stores, at entry (p, q) of its 5000 × 128 tile, the clamp at the float word 0 of
      (∑ₖ A(p,k)·Wl(k,q) + ∑ₖ H(p,k)·Wr(k,q)) + b(0,q)
  over the tiles it is handed (at the extended reals the narrowing of the operands is the identity and each matrix-unit
  product into the zero splat is the plain sum over the 64 shared coordinates). At grid point t the two feature tiles
  are rows 5000·t … 5000·t + 4999 of their arrays, the weight matrices and the bias row are whole, and the output tile
  goes back to the same rows of the output; every row r lies in the tile of point r / 5000, so the 20 write-backs fill
  the array with the layer.
-/
import proofs.«172000_j70763881169321_1_alg».proof.Proof.Gen.KernelIdeal.Frame
import proofs.«172000_j70763881169321_1_alg».proof.Proof.Spec
import proofs.«172000_j70763881169321_1_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Sage
open Cert.KernelIdeal Cert.KernelIdeal.Gen

variable (V : (c : Dev nD) → (b : Ref sig .tc) → Buf (Elt Ideal) ((c : Thread nD τ).loc b))

/-! ## The body's arithmetic at one entry of its tile -/

/-- One matrix-unit product of the layer into the zero splat, read at entry (p, q): the sum over the 64 shared
    coordinates. -/
theorem prod_apply {φ₁ φ₂ : FTy} (A : FVec Ideal S5000x64 φ₁) (B : FVec Ideal S64x128 φ₂) (p : Fin 5000) (q : Fin 128) :
    matmul dot_S5000x64_S64x128_S5000x128_1_0_0_1_n_n none A B (constant S5000x128 .f32 0x00000000#32) (ix2 p q)
      = ∑ k : Fin 64, A (ix2 p k) * B (ix2 k q) :=
  Cert.LibPlainProduct.matmul_zero_plain_apply (M := 5000) (K := 64) (N := 128)
    Facts₀.dot_S5000x64_S64x128_S5000x128_1_0_0_1_n_n_wf none A B p q

/-- The body's stored tile at entry (p, q): both products summed, the bias row added, clamped below at the float
    word 0. The narrowing of the operands is the identity on the extended reals. -/
theorem pay_apply (x0 x1 : FVec Ideal S5000x64 .f32) (x2 x3 : FVec Ideal S64x128 .f32) (x4 : FVec Ideal S1x128 .f32)
    (p : Fin 5000) (q : Fin 128) :
    k0_pay1 x0 x1 x2 x3 x4 (ix2 p q)
      = max (((∑ k : Fin 64, x0 (ix2 p k) * x2 (ix2 k q)) + (∑ k : Fin 64, x1 (ix2 p k) * x3 (ix2 k q)))
          + x4 (ix2 (0 : Fin 1) q)) (Ideal.ofBits .f32 0x00000000#32) := by
  unfold k0_pay1
  simp only [shapeCast_self]
  rw [maximumf_apply, addf_apply, addf_apply, broadcast_apply, broadcastTo_1b_ab_apply, prod_apply, prod_apply]
  rfl

/-! ## Where each window's block sits in its array -/

theorem hz : (![0, 0] : Fin 2 → Nat) = fun _ => 0 := funext fun a => by fin_cases a <;> rfl

/-- The printed index maps, decided over the 20 grid points: the two row-tiled inputs and the output are at block
    (t, 0); the two weight matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p, column k of the aggregated-feature tile at point t is row 5000·t + p of the array. -/
theorem agg_blk (c : Dev nD) (t : Fin cfg0.N) (p : Fin 5000) (k : Fin 64) (r : Fin 100000) (k' : Fin 64)
    (hr : r.val = 5000 * t.val + p.val) (hk : k'.val = k.val) :
    (iblk0 (F := Ideal) V c 0 t : FVec Ideal S5000x64 .f32) (ix2 p k) = (V c main_v31 : Mat 100000 64) (ix2 r k') := by
  obtain ⟨e0, e1, -⟩ := idx_facts t
  unfold iblk0
  rw [View.read_apply]
  show (V c main_v31 : Mat 100000 64) _ = (V c main_v31 : Mat 100000 64) _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k'.val; rw [e1, hk]; omega

/-- Row p, column k of the node-feature tile at point t is row 5000·t + p of the array. -/
theorem self_blk (c : Dev nD) (t : Fin cfg0.N) (p : Fin 5000) (k : Fin 64) (r : Fin 100000) (k' : Fin 64)
    (hr : r.val = 5000 * t.val + p.val) (hk : k'.val = k.val) :
    (iblk0 (F := Ideal) V c 1 t : FVec Ideal S5000x64 .f32) (ix2 p k) = (V c main_v10 : Mat 100000 64) (ix2 r k') := by
  obtain ⟨-, -, e0, e1, -⟩ := idx_facts t
  unfold iblk0
  rw [View.read_apply]
  show (V c main_v10 : Mat 100000 64) _ = (V c main_v10 : Mat 100000 64) _
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 64 + 1 * k.val = k'.val; rw [e1, hk]; omega

/-- The first weight matrix's one block is the whole matrix, at every point. -/
theorem wl_blk (c : Dev nD) (t : Fin cfg0.N) (k : Fin 64) (q : Fin 128) (k' : Fin 64) (q' : Fin 128)
    (hk : k'.val = k.val) (hq : q'.val = q.val) :
    (iblk0 (F := Ideal) V c 2 t : FVec Ideal S64x128 .f32) (ix2 k q) = (V c main_arg4 : Mat 64 128) (ix2 k' q') := by
  obtain ⟨-, -, -, -, e0, e1, -⟩ := idx_facts t
  unfold iblk0
  rw [View.read_apply]
  show (V c main_arg4 : Mat 64 128) _ = (V c main_arg4 : Mat 64 128) _
  refine congrArg _ (funext fun a => Fin.ext ?_)
  match a with
  | ⟨0, _⟩ => show win0_2.index t (0 : Fin 2) * 64 + 1 * k.val = k'.val; rw [e0, hk]; omega
  | ⟨1, _⟩ => show win0_2.index t (1 : Fin 2) * 128 + 1 * q.val = q'.val; rw [e1, hq]; omega

/-- The second weight matrix's one block is the whole matrix, at every point. -/
theorem wr_blk (c : Dev nD) (t : Fin cfg0.N) (k : Fin 64) (q : Fin 128) (k' : Fin 64) (q' : Fin 128)
    (hk : k'.val = k.val) (hq : q'.val = q.val) :
    (iblk0 (F := Ideal) V c 3 t : FVec Ideal S64x128 .f32) (ix2 k q) = (V c main_arg6 : Mat 64 128) (ix2 k' q') := by
  obtain ⟨-, -, -, -, -, -, e0, e1, -⟩ := idx_facts t
  unfold iblk0
  rw [View.read_apply]
  show (V c main_arg6 : Mat 64 128) _ = (V c main_arg6 : Mat 64 128) _
  refine congrArg _ (funext fun a => Fin.ext ?_)
  match a with
  | ⟨0, _⟩ => show win0_3.index t (0 : Fin 2) * 64 + 1 * k.val = k'.val; rw [e0, hk]; omega
  | ⟨1, _⟩ => show win0_3.index t (1 : Fin 2) * 128 + 1 * q.val = q'.val; rw [e1, hq]; omega

/-- The bias row's one block is the whole row, at every point. -/
theorem bias_blk (c : Dev nD) (t : Fin cfg0.N) (q : Fin 128) (q' : Fin 128) (hq : q'.val = q.val) :
    (iblk0 (F := Ideal) V c 4 t : FVec Ideal S1x128 .f32) (ix2 (0 : Fin 1) q) = (V c main_v32 : Mat 1 128) (ix2 (0 : Fin 1) q') := by
  obtain ⟨-, -, -, -, -, -, -, -, e0, e1, -⟩ := idx_facts t
  unfold iblk0
  rw [View.read_apply]
  show (V c main_v32 : Mat 1 128) _ = (V c main_v32 : Mat 1 128) _
  refine congrArg _ (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 128 + 1 * q.val = q'.val; rw [e1, hq]; omega

/-! ## What a point writes back, and the whole array -/

/-- WHAT POINT t WRITES BACK is block t of the first layer of the arrays the region finds. -/
theorem flushed_eq (c : Dev nD) (t : Fin cfg0.N) :
    (dat0 (F := Ideal) V c).flushed 5 t = ((cfg0.win 5).blk t).view.read (Elt Ideal)
      (layer1 (V c main_v31) (V c main_v10) (V c main_arg4) (V c main_arg6) (V c main_v32)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have hi0 : ((((cfg0.win 5).blk t).view.emb (ix2 p q) : S100000x128.Idx) 0).val = 5000 * t.val + p.val := by
    show win0_5.index t (0 : Fin 2) * 5000 + 1 * p.val = _
    rw [e0]; omega
  have hi1 : ((((cfg0.win 5).blk t).view.emb (ix2 p q) : S100000x128.Idx) 1).val = q.val := by
    show win0_5.index t (1 : Fin 2) * 128 + 1 * q.val = _
    rw [e1]; omega
  show k0_pay1 (iblk0 V c 0 t) (iblk0 V c 1 t) (iblk0 V c 2 t) (iblk0 V c 3 t) (iblk0 V c 4 t) (ix2 p q)
    = layer1 (V c main_v31) (V c main_v10) (V c main_arg4) (V c main_arg6) (V c main_v32) (((cfg0.win 5).blk t).view.emb (ix2 p q))
  refine (pay_apply (iblk0 V c 0 t) (iblk0 V c 1 t) (iblk0 V c 2 t) (iblk0 V c 3 t) (iblk0 V c 4 t) p q).trans ?_
  unfold layer1 combineAt
  refine congrArg₂ max (congrArg₂ (· + ·) (congrArg₂ (· + ·)
    (Finset.sum_congr rfl fun k _ => congrArg₂ (· * ·) (agg_blk V c t p k _ k hi0 rfl) (wl_blk V c t k q k _ rfl hi1))
    (Finset.sum_congr rfl fun k _ => congrArg₂ (· * ·) (self_blk V c t p k _ k hi0 rfl) (wr_blk V c t k q k _ rfl hi1)))
    (bias_blk V c t q _ hi1)) rfl

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v33).slice (win0_5.rect t)).set ↔ _
  rw [View.set_slice_whole, Rect.mem_set_unit]
  exact Iff.rfl

/-- Every entry of the output lies in the block of the point that owns its row: row r belongs to point r / 5000,
    and the output is written back at every point. -/
theorem cover (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 20 := rfl
  let t : Fin cfg0.N := ⟨(i 0).val / 5000, by rw [hN]; omega⟩
  have ht : t.val = (i 0).val / 5000 := rfl
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- THE OUTPUT ARRAY after the region: the first layer of the arrays the region finds. -/
theorem final (V : (c : Dev nD) → (b : Ref sig .tc) → Buf (Elt Ideal) ((c : Thread nD τ).loc b)) (c : Dev nD) :
    (dat0 (F := Ideal) V c).arrAt 5 cfg0.N
      = Cert.Sage.layer1 (V c main_v31) (V c main_v10) (V c main_arg4) (V c main_arg6) (V c main_v32) :=
  (dat0 (F := Ideal) V c).arrAt_eq_of_cover 5
    (Cert.Sage.layer1 (V c main_v31) (V c main_v10) (V c main_arg4) (V c main_arg6) (V c main_v32))
    (fun t _ => flushed_eq V c t) cover

end Cert.KernelIdeal.Region0

end
-- ==== Proof.Region1.lean ====
/-
  The second layer's region, as a value: the output array after the region is the second layer of the arrays the
  region finds, entry by entry.

  The body stores, at entry (p, q) of its 5000 × 64 tile,
      (∑ₖ A(p,k)·Wl(k,q) + ∑ₖ H(p,k)·Wr(k,q)) + b(0,q)
  over the tiles it is handed, with no clamp (at the extended reals the narrowing of the operands is the identity and
  each matrix-unit product into the zero splat is the plain sum over the 128 shared coordinates). At grid point t the
  two feature tiles are rows 5000·t … 5000·t + 4999 of their arrays, the weight matrices and the bias row are whole,
  and the output tile goes back to the same rows of the output; every row r lies in the tile of point r / 5000, so the
  20 write-backs fill the array with the layer.
-/
import proofs.«172000_j70763881169321_1_alg».proof.Proof.Gen.KernelIdeal.Frame
import proofs.«172000_j70763881169321_1_alg».proof.Proof.Spec
import proofs.«172000_j70763881169321_1_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Sage
open Cert.KernelIdeal Cert.KernelIdeal.Gen

variable (V : (c : Dev nD) → (b : Ref sig .tc) → Buf (Elt Ideal) ((c : Thread nD τ).loc b))

/-! ## The body's arithmetic at one entry of its tile -/

/-- One matrix-unit product of the layer into the zero splat, read at entry (p, q): the sum over the 128 shared
    coordinates. -/
theorem prod_apply {φ₁ φ₂ : FTy} (A : FVec Ideal S5000x128 φ₁) (B : FVec Ideal S128x64 φ₂) (p : Fin 5000) (q : Fin 64) :
    matmul dot_S5000x128_S128x64_S5000x64_1_0_0_1_n_n none A B (constant S5000x64 .f32 0x00000000#32) (ix2 p q)
      = ∑ k : Fin 128, A (ix2 p k) * B (ix2 k q) :=
  Cert.LibPlainProduct.matmul_zero_plain_apply (M := 5000) (K := 128) (N := 64)
    Facts₀.dot_S5000x128_S128x64_S5000x64_1_0_0_1_n_n_wf none A B p q

/-- The body's stored tile at entry (p, q): both products summed and the bias row added. The narrowing of the operands
    is the identity on the extended reals. -/
theorem pay_apply (x0 x1 : FVec Ideal S5000x128 .f32) (x2 x3 : FVec Ideal S128x64 .f32) (x4 : FVec Ideal S1x64 .f32)
    (p : Fin 5000) (q : Fin 64) :
    k1_pay1 x0 x1 x2 x3 x4 (ix2 p q)
      = ((∑ k : Fin 128, x0 (ix2 p k) * x2 (ix2 k q)) + (∑ k : Fin 128, x1 (ix2 p k) * x3 (ix2 k q)))
          + x4 (ix2 (0 : Fin 1) q) := by
  unfold k1_pay1
  simp only [shapeCast_self]
  rw [addf_apply, addf_apply, broadcastTo_1b_ab_apply, prod_apply, prod_apply]
  rfl

/-! ## Where each window's block sits in its array -/

theorem hz : (![0, 0] : Fin 2 → Nat) = fun _ => 0 := funext fun a => by fin_cases a <;> rfl

/-- The printed index maps, decided over the 20 grid points: the two row-tiled inputs and the output are at block
    (t, 0); the two weight matrices and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p, column k of the aggregated-feature tile at point t is row 5000·t + p of the array. -/
theorem agg_blk (c : Dev nD) (t : Fin cfg1.N) (p : Fin 5000) (k : Fin 128) (r : Fin 100000) (k' : Fin 128)
    (hr : r.val = 5000 * t.val + p.val) (hk : k'.val = k.val) :
    (iblk1 (F := Ideal) V c 0 t : FVec Ideal S5000x128 .f32) (ix2 p k) = (V c main_v46 : Mat 100000 128) (ix2 r k') := by
  obtain ⟨e0, e1, -⟩ := idx_facts t
  unfold iblk1
  rw [View.read_apply]
  show (V c main_v46 : Mat 100000 128) _ = (V c main_v46 : Mat 100000 128) _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k'.val; rw [e1, hk]; omega

/-- Row p, column k of the node-feature tile at point t is row 5000·t + p of the array. -/
theorem self_blk (c : Dev nD) (t : Fin cfg1.N) (p : Fin 5000) (k : Fin 128) (r : Fin 100000) (k' : Fin 128)
    (hr : r.val = 5000 * t.val + p.val) (hk : k'.val = k.val) :
    (iblk1 (F := Ideal) V c 1 t : FVec Ideal S5000x128 .f32) (ix2 p k) = (V c main_v33 : Mat 100000 128) (ix2 r k') := by
  obtain ⟨-, -, e0, e1, -⟩ := idx_facts t
  unfold iblk1
  rw [View.read_apply]
  show (V c main_v33 : Mat 100000 128) _ = (V c main_v33 : Mat 100000 128) _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k'.val; rw [e1, hk]; omega

/-- The first weight matrix's one block is the whole matrix, at every point. -/
theorem wl_blk (c : Dev nD) (t : Fin cfg1.N) (k : Fin 128) (q : Fin 64) (k' : Fin 128) (q' : Fin 64)
    (hk : k'.val = k.val) (hq : q'.val = q.val) :
    (iblk1 (F := Ideal) V c 2 t : FVec Ideal S128x64 .f32) (ix2 k q) = (V c main_arg7 : Mat 128 64) (ix2 k' q') := by
  obtain ⟨-, -, -, -, e0, e1, -⟩ := idx_facts t
  unfold iblk1
  rw [View.read_apply]
  show (V c main_arg7 : Mat 128 64) _ = (V c main_arg7 : Mat 128 64) _
  refine congrArg _ (funext fun a => Fin.ext ?_)
  match a with
  | ⟨0, _⟩ => show win1_2.index t (0 : Fin 2) * 128 + 1 * k.val = k'.val; rw [e0, hk]; omega
  | ⟨1, _⟩ => show win1_2.index t (1 : Fin 2) * 64 + 1 * q.val = q'.val; rw [e1, hq]; omega

/-- The second weight matrix's one block is the whole matrix, at every point. -/
theorem wr_blk (c : Dev nD) (t : Fin cfg1.N) (k : Fin 128) (q : Fin 64) (k' : Fin 128) (q' : Fin 64)
    (hk : k'.val = k.val) (hq : q'.val = q.val) :
    (iblk1 (F := Ideal) V c 3 t : FVec Ideal S128x64 .f32) (ix2 k q) = (V c main_arg9 : Mat 128 64) (ix2 k' q') := by
  obtain ⟨-, -, -, -, -, -, e0, e1, -⟩ := idx_facts t
  unfold iblk1
  rw [View.read_apply]
  show (V c main_arg9 : Mat 128 64) _ = (V c main_arg9 : Mat 128 64) _
  refine congrArg _ (funext fun a => Fin.ext ?_)
  match a with
  | ⟨0, _⟩ => show win1_3.index t (0 : Fin 2) * 128 + 1 * k.val = k'.val; rw [e0, hk]; omega
  | ⟨1, _⟩ => show win1_3.index t (1 : Fin 2) * 64 + 1 * q.val = q'.val; rw [e1, hq]; omega

/-- The bias row's one block is the whole row, at every point. -/
theorem bias_blk (c : Dev nD) (t : Fin cfg1.N) (q : Fin 64) (q' : Fin 64) (hq : q'.val = q.val) :
    (iblk1 (F := Ideal) V c 4 t : FVec Ideal S1x64 .f32) (ix2 (0 : Fin 1) q) = (V c main_v47 : Mat 1 64) (ix2 (0 : Fin 1) q') := by
  obtain ⟨-, -, -, -, -, -, -, -, e0, e1, -⟩ := idx_facts t
  unfold iblk1
  rw [View.read_apply]
  show (V c main_v47 : Mat 1 64) _ = (V c main_v47 : Mat 1 64) _
  refine congrArg _ (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 64 + 1 * q.val = q'.val; rw [e1, hq]; omega

/-! ## What a point writes back, and the whole array -/

/-- WHAT POINT t WRITES BACK is block t of the second layer of the arrays the region finds. -/
theorem flushed_eq (c : Dev nD) (t : Fin cfg1.N) :
    (dat1 (F := Ideal) V c).flushed 5 t = ((cfg1.win 5).blk t).view.read (Elt Ideal)
      (layer2 (V c main_v46) (V c main_v33) (V c main_arg7) (V c main_arg9) (V c main_v47)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, e0, e1⟩ := idx_facts t
  have hi0 : ((((cfg1.win 5).blk t).view.emb (ix2 p q) : S100000x64.Idx) 0).val = 5000 * t.val + p.val := by
    show win1_5.index t (0 : Fin 2) * 5000 + 1 * p.val = _
    rw [e0]; omega
  have hi1 : ((((cfg1.win 5).blk t).view.emb (ix2 p q) : S100000x64.Idx) 1).val = q.val := by
    show win1_5.index t (1 : Fin 2) * 64 + 1 * q.val = _
    rw [e1]; omega
  show k1_pay1 (iblk1 V c 0 t) (iblk1 V c 1 t) (iblk1 V c 2 t) (iblk1 V c 3 t) (iblk1 V c 4 t) (ix2 p q)
    = layer2 (V c main_v46) (V c main_v33) (V c main_arg7) (V c main_arg9) (V c main_v47) (((cfg1.win 5).blk t).view.emb (ix2 p q))
  refine (pay_apply (iblk1 V c 0 t) (iblk1 V c 1 t) (iblk1 V c 2 t) (iblk1 V c 3 t) (iblk1 V c 4 t) p q).trans ?_
  unfold layer2 combineAt
  refine congrArg₂ (· + ·) (congrArg₂ (· + ·)
    (Finset.sum_congr rfl fun k _ => congrArg₂ (· * ·) (agg_blk V c t p k _ k hi0 rfl) (wl_blk V c t k q k _ rfl hi1))
    (Finset.sum_congr rfl fun k _ => congrArg₂ (· * ·) (self_blk V c t p k _ k hi0 rfl) (wr_blk V c t k q k _ rfl hi1)))
    (bias_blk V c t q _ hi1)

/-- An index of the array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v48).slice (win1_5.rect t)).set ↔ _
  rw [View.set_slice_whole, Rect.mem_set_unit]
  exact Iff.rfl

/-- Every entry of the output lies in the block of the point that owns its row: row r belongs to point r / 5000,
    and the output is written back at every point. -/
theorem cover (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 20 := rfl
  let t : Fin cfg1.N := ⟨(i 0).val / 5000, by rw [hN]; omega⟩
  have ht : t.val = (i 0).val / 5000 := rfl
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- THE OUTPUT ARRAY after the region: the second layer of the arrays the region finds. -/
theorem final (V : (c : Dev nD) → (b : Ref sig .tc) → Buf (Elt Ideal) ((c : Thread nD τ).loc b)) (c : Dev nD) :
    (dat1 (F := Ideal) V c).arrAt 5 cfg1.N
      = Cert.Sage.layer2 (V c main_v46) (V c main_v33) (V c main_arg7) (V c main_arg9) (V c main_v47) :=
  (dat1 (F := Ideal) V c).arrAt_eq_of_cover 5
    (Cert.Sage.layer2 (V c main_v46) (V c main_v33) (V c main_arg7) (V c main_arg9) (V c main_v47))
    (fun t _ => flushed_eq V c t) cover

end Cert.KernelIdeal.Region1

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.Region2.lean ====
/-
  The decoder region's value. The region walks the 500000 rows of two [500000, 64] arrays in 50 tiles of 10000
  rows; on each tile it multiplies the two tiles entry by entry, sums each row's 64 products, and writes the 10000
  sums back as rows of a [500000, 1] column. So row r of the column ends holding the inner product of row r of the
  first array with row r of the second — the decoder's scores `dots` —, whatever the column held before:

  * one tile's result at row p is ∑ₖ x0(p, k) · x1(p, k) (`pay_apply`): the product is entry-wise, the sum along
    the second axis reads as the sum over that axis's 64 coordinates, and the cast of the length-10000 vector of
    sums to a column keeps row p at row p;
  * at grid point t every window sits on block (t, 0) (`idx_facts`), so row p of each operand tile is row
    10000·t + p of its array, and what point t writes back is block t of `dots` (`flushed_eq`);
  * row r of the column lies in the block of point r / 10000, so the 50 blocks cover the column (`final`).
-/
import proofs.«172000_j70763881169321_1_alg».proof.Proof.Gen.KernelIdeal.Frame
import proofs.«172000_j70763881169321_1_alg».proof.Proof.Spec
import proofs.«172000_j70763881169321_1_alg».proof.Proof.LibColumnCast
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Sage
open scoped BigOperators

/-- Row p of the decode tile's result, at its one column: the inner product of row p of the two operand tiles. -/
theorem pay_apply (x0 x1 : FVec Ideal S10000x64 .f32) (p : Fin 10000) (u : Fin 1) :
    k2_pay1 (F := Ideal) x0 x1 (ix2 p u) = ∑ k : Fin 64, x0 (ix2 p k) * x1 (ix2 p k) := by
  unfold k2_pay1
  simp only [shapeCast_self]
  refine (Idealize.ShloMosaic.ColumnCast.shapeCast_col_apply _ _ p u).trans ?_
  refine (Ideal.multiReduction_add_single _ _ reduces_S10000x64_S10000 _ _ (ix1 p)).trans ?_
  refine Finset.sum_congr rfl fun k _ => ?_
  rw [mulf_apply]
  have e : reduces_S10000x64_S10000.lift (ix1 p) k = ix2 p k := by
    funext a
    match a with
    | ⟨0, _⟩ => exact Fin.ext rfl
    | ⟨1, _⟩ => exact Fin.ext rfl
  rw [e]
  rfl

/-- The decoder's column at an index whose row is r: the inner product of row r of the two arrays. -/
theorem dots_apply (A B : Mat 500000 64) (i : (⟨2, ![500000, 1]⟩ : Shape).Idx) (r : Fin 500000) (h : (i 0).val = r.val) :
    dots A B i = ∑ k : Fin 64, A (ix2 r k) * B (ix2 r k) := by
  obtain ⟨r', u, rfl⟩ : ∃ (r' : Fin 500000) (u : Fin 1), i = ix2 r' u := ⟨i 0, i 1, eq_ix2 i⟩
  have e : r' = r := Fin.ext h
  subst e
  rfl

/-- A tile of 10000 rows starting at row 10000·r: when the two operand tiles hold those rows of the arrays A and B,
    the tile's result at row j is the decoder's column at row 10000·r + j. -/
theorem tile_eq_dots (A B : Mat 500000 64) (x0 x1 : FVec Ideal S10000x64 .f32) (r : Nat) (hr : r < 50)
    (h0 : ∀ (p : Fin 10000) (k : Fin 64), x0 (ix2 p k) = A (ix2 (⟨r * 10000 + p.val, by omega⟩ : Fin 500000) k))
    (h1 : ∀ (p : Fin 10000) (k : Fin 64), x1 (ix2 p k) = B (ix2 (⟨r * 10000 + p.val, by omega⟩ : Fin 500000) k))
    (j : (⟨2, ![10000, 1]⟩ : Shape).Idx) (i : (⟨2, ![500000, 1]⟩ : Shape).Idx) (hi : (i 0).val = r * 10000 + (j 0).val) :
    k2_pay1 (F := Ideal) x0 x1 j = dots A B i := by
  obtain ⟨p, u, rfl⟩ : ∃ (p : Fin 10000) (u : Fin 1), j = ix2 p u := ⟨j 0, j 1, eq_ix2 j⟩
  rw [pay_apply, dots_apply A B i ⟨r * 10000 + p.val, by omega⟩ hi]
  exact Finset.sum_congr rfl fun k _ => by rw [h0, h1]

variable (V : (c : Dev nD) → (b : Ref sig .tc) → Buf (Elt Ideal) ((c : Thread nD τ).loc b))

theorem hz : (![0, 0] : Fin 2 → Nat) = fun _ => 0 := funext fun a => by fin_cases a <;> rfl

/-- The three index maps, decided over the 50 grid points: at point t every window is on block (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the decoder's column of the two arrays as the region finds them. -/
theorem flushed_eq (c : Dev nD) (t : Fin cfg2.N) :
    (dat2 (F := Ideal) V c).flushed 2 t
      = ((cfg2.win 2).blk t).view.read (Elt Ideal) (dots (V c main_v59) (V c main_v66)) := by
  show (cfg2.win 2).cut (grid2.coords t) ((dat2 V c).after 2 t) = _
  rw [after2_2]
  unfold out2_2
  rw [View.canon_unit_zero hz]
  simp only [View.ld_unit_zero (S := S10000x64) hz]
  obtain ⟨e00, e01, e10, e11, e20, e21⟩ := idx_facts t
  have ht : t.val < 50 := t.isLt
  funext j
  show k2_pay1 (F := Ideal) (iblk2 V c 0 t) (iblk2 V c 1 t) j
      = dots (V c main_v59) (V c main_v66) (((cfg2.win 2).blk t).view.emb j)
  refine tile_eq_dots (V c main_v59) (V c main_v66) (iblk2 V c 0 t) (iblk2 V c 1 t) t.val ht ?_ ?_ j _ ?_
  · intro p k
    show V c main_v59 (((cfg2.win 0).blk t).view.emb (ix2 p k)) = _
    congr 1
    funext a
    apply Fin.ext
    match a with
    | ⟨0, _⟩ => show win2_0.index t (0 : Fin 2) * 10000 + 1 * p.val = t.val * 10000 + p.val; rw [e00]; omega
    | ⟨1, _⟩ => show win2_0.index t (1 : Fin 2) * 64 + 1 * k.val = k.val; rw [e01]; omega
  · intro p k
    show V c main_v66 (((cfg2.win 1).blk t).view.emb (ix2 p k)) = _
    congr 1
    funext a
    apply Fin.ext
    match a with
    | ⟨0, _⟩ => show win2_1.index t (0 : Fin 2) * 10000 + 1 * p.val = t.val * 10000 + p.val; rw [e10]; omega
    | ⟨1, _⟩ => show win2_1.index t (1 : Fin 2) * 64 + 1 * k.val = k.val; rw [e11]; omega
  · show win2_2.index t (0 : Fin 2) * 10000 + 1 * (j 0).val = t.val * 10000 + (j 0).val
    rw [e20]; omega

/-- An index of the [500000, 1] array is in point t's block iff, on each axis, its coordinate is in the block's range. -/
theorem mem_blk (t : Fin cfg2.N) (i : S500000x1.Idx) :
    i ∈ ((cfg2.win 2).blk t).view.set ↔ ∀ a : Fin 2, win2_2.index t a * S10000x1.size a ≤ (i a).val
      ∧ (i a).val < win2_2.index t a * S10000x1.size a + S10000x1.size a := by
  show i ∈ ((View.whole main_v67).slice (win2_2.rect t)).set ↔ _
  rw [View.set_slice_whole, Rect.mem_set_unit]
  exact Iff.rfl

/-- Row r of the array lies in the block of point r / 10000, so the 50 blocks cover the array and it ends holding
    the decoder's column of the two arrays as the region finds them. -/
theorem final (c : Dev nD) :
    (dat2 (F := Ideal) V c).arrAt 2 cfg2.N = Cert.Sage.dots (V c main_v59) (V c main_v66) :=
  (dat2 (F := Ideal) V c).arrAt_eq_of_cover 2 (dots (V c main_v59) (V c main_v66)) (fun t _ => flushed_eq V c t) fun i => by
    have hi0 : (i 0).val < 500000 := (i 0).isLt
    have hi1 : (i 1).val < 1 := (i 1).isLt
    have hN : cfg2.N = 50 := N_2
    have hq : (i 0).val / 10000 < cfg2.N := by rw [hN]; omega
    obtain ⟨-, -, -, -, e20, e21⟩ := idx_facts ⟨(i 0).val / 10000, hq⟩
    refine ⟨⟨(i 0).val / 10000, hq⟩, flush2_2 _, ?_⟩
    rw [mem_blk]
    intro a
    match a with
    | ⟨0, _⟩ =>
      show win2_2.index ⟨(i 0).val / 10000, hq⟩ (0 : Fin 2) * 10000 ≤ (i 0).val
        ∧ (i 0).val < win2_2.index ⟨(i 0).val / 10000, hq⟩ (0 : Fin 2) * 10000 + 10000
      rw [e20]; show (i 0).val / 10000 * 10000 ≤ (i 0).val ∧ (i 0).val < (i 0).val / 10000 * 10000 + 10000
      omega
    | ⟨1, _⟩ =>
      show win2_2.index ⟨(i 0).val / 10000, hq⟩ (1 : Fin 2) * 1 ≤ (i 1).val
        ∧ (i 1).val < win2_2.index ⟨(i 0).val / 10000, hq⟩ (1 : Fin 2) * 1 + 1
      rw [e21]; omega

end Cert.KernelIdeal.Region2

end
-- ==== Proof.LibRowCast.lean ====
/-
  A vector of length n and the row [1, n] that holds the same elements: a shape cast between the two keeps every
  element's row-major position, which is j for the vector's element j and 0 · n + j for the row's element (0, j).
  So the cast to a row reads the vector at the column coordinate, and the cast back reads the row at (0, j).
-/
import Idealize.ShloMosaic.Lib.ValueIdx
import Idealize.ShloMosaic.Lib.Pipeline.Value
import Idealize.ShloMosaic.Lib.ValueLayout

namespace Idealize.ShloMosaic.RowCast

open Idealize.ShloMosaic Idealize.ShloMosaic.ValueIdx

/-- A vector of length n cast to a row [1, n] reads, at (u, j), the vector at j, whatever the unit coordinate u:
    the row-major positions are u · n + j with u = 0, and j. -/
theorem shapeCast_row_apply {α : Type} {n : ℕ} (x : (⟨1, ![n]⟩ : Shape).Idx → α)
    (h : (⟨1, ![n]⟩ : Shape).ShapeCasts (⟨2, ![1, n]⟩ : Shape)) (u : Fin 1) (j : Fin n) :
    shapeCast (⟨2, ![1, n]⟩ : Shape) x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- A row [1, n] cast to a vector of length n reads, at j, the row at (0, j): the row-major positions are
    0 · n + j and j. -/
theorem shapeCast_unrow_apply {α : Type} {n : ℕ} (x : (⟨2, ![1, n]⟩ : Shape).Idx → α)
    (h : (⟨2, ![1, n]⟩ : Shape).ShapeCasts (⟨1, ![n]⟩ : Shape)) (j : Fin n) :
    shapeCast (⟨1, ![n]⟩ : Shape) x h (ix1 j) = x (ix2 (0 : Fin 1) j) :=
  shapeCast_apply x h _ _ (by
    rw [Shape.rowMajor_val_two, Shape.rowMajor_val_one]
    show (0 : ℕ) * n + j.val = j.val
    rw [Nat.zero_mul, Nat.zero_add])

end Idealize.ShloMosaic.RowCast
-- ==== Proof.Bridge1.lean ====
/-
  The first layer of the kernel program's value is the reference's, stage by stage.

  Both programs look the node features up by node id, sum each edge's source row into its destination node, and
  count the incoming edges with the same host operations on the same operands, so those stages are equal as whole
  arrays with nothing to compute. They differ in two places. The kernel scales the sums by the reciprocal
  1 / max(in-degree, 1) where the reference divides by max(in-degree, 1): on the extended reals x · (1 / d) = x / d
  whenever d ≠ 0, and d ≥ 1 here. The kernel adds the bias row last, (A·Wl + H·Wr) + b, where the reference adds it
  before the second product, (A·Wl + b) + H·Wr: addition of extended reals is commutative and associative.
-/
import proofs.«172000_j70763881169321_1_alg».proof.Proof.KVal
import proofs.«172000_j70763881169321_1_alg».proof.Proof.Gen.ReferenceIdeal.Read
import proofs.«172000_j70763881169321_1_alg».proof.Proof.LibRowCast
import proofs.«172000_j70763881169321_1_alg».proof.Proof.LibColumnCast
import Idealize.ShloMosaic.Lib.IdealHost

noncomputable section

open scoped BigOperators

namespace Cert.Bridge

open Cert.KernelIdeal Cert.KernelIdeal.Gen Idealize.ShloMosaic Idealize.ShloMosaic.ValueIdx

/-- The looked-up node features: the same lookup of the same table at the same indices. -/
theorem h0_eq (x0 : KVal.Words S100000) (x3 : FVec Ideal S100000x64 .f32) :
    KVal.h0 x0 x3 = Cert.ReferenceIdeal.Read.val_main_v10 (F := Ideal) x0 x3 := rfl

/-- The per-node sums of the neighbours' looked-up features: the same scatter of the same gathered rows. -/
theorem sum64_h0_eq (x0 : KVal.Words S100000) (x1 : KVal.Words S2x1200000) (x3 : FVec Ideal S100000x64 .f32) :
    KVal.sum64 (KVal.h0 x0 x3) x1 = Cert.ReferenceIdeal.Read.val_main_v20 (F := Ideal) x0 x1 x3 := rfl

/-- max(in-degree, 1): the reference computes it once per layer, from the same edge list both times. -/
theorem degMax_eq (x1 : KVal.Words S2x1200000) :
    KVal.degMax x1 = Cert.ReferenceIdeal.Read.val_main_v26 (F := Ideal) x1 := rfl

theorem degMax_eq' (x1 : KVal.Words S2x1200000) :
    KVal.degMax x1 = Cert.ReferenceIdeal.Read.val_main_v52 (F := Ideal) x1 := rfl

/-- A vector over the nodes spread first to a column and then along 64 columns reads, at (p, q), the vector at p. -/
theorem spread64_apply (y : FVec Ideal S100000 .f32) (p : Fin 100000) (q : Fin 64) :
    broadcastInDim S100000x64 ![0, 1] bcast_S100000x1_S100000x64_0_1
      (broadcastInDim S100000x1 ![0] bcast_S100000_S100000x1_0 y) (ix2 p q) = y (ix1 p) := by
  refine (broadcastInDim_apply _ bcast_S100000x1_S100000x64_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 y (ix2 p (0 : Fin 1)) (ix1 p) (fun a => match a with
    | ⟨0, _⟩ => by show p.val = if (100000 : Nat) = 1 then 0 else p.val; rw [if_neg (by decide)])

/-- The same spread along 128 columns. -/
theorem spread128_apply (y : FVec Ideal S100000 .f32) (p : Fin 100000) (q : Fin 128) :
    broadcastInDim S100000x128 ![0, 1] bcast_S100000x1_S100000x128_0_1
      (broadcastInDim S100000x1 ![0] bcast_S100000_S100000x1_0 y) (ix2 p q) = y (ix1 p) := by
  refine (broadcastInDim_apply _ bcast_S100000x1_S100000x128_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 y (ix2 p (0 : Fin 1)) (ix1 p) (fun a => match a with
    | ⟨0, _⟩ => by show p.val = if (100000 : Nat) = 1 then 0 else p.val; rw [if_neg (by decide)])

/-- The float word one, splat over the nodes, is the real one at every node. -/
theorem ones_apply (j : S100000.Idx) :
    (broadcastInDim S100000 ![] bcast_S_S100000 KVal.oneWord : FVec Ideal S100000 .f32) j = 1 := by
  rw [broadcastInDim_scalar_apply]
  show Ideal.ofBits .f32 0x3F800000#32 = 1
  exact Ideal.ofBits_one_f32

/-- max(in-degree, 1) is never zero: it is at least the real one. -/
theorem degMax_ne_zero (x1 : KVal.Words S2x1200000) (j : S100000.Idx) : KVal.degMax x1 j ≠ 0 := by
  unfold KVal.degMax
  rw [maximumf_apply, ones_apply]
  intro e
  have : (1 : EReal) ≤ 0 := e ▸ le_max_right _ _
  exact absurd this (by simp)

/-- A sum times the reciprocal of max(in-degree, 1) is the sum divided by max(in-degree, 1). -/
theorem mul_invDeg (s : EReal) (x1 : KVal.Words S2x1200000) (p : Fin 100000) :
    s * KVal.invDeg x1 (ix1 p) = Ideal.div s (KVal.degMax x1 (ix1 p)) := by
  unfold KVal.invDeg
  rw [hostDivf_apply, ones_apply]
  exact Ideal.mul_one_div (degMax_ne_zero x1 (ix1 p))

/-- The mean of the neighbours' looked-up features. -/
theorem agg0_eq (x0 : KVal.Words S100000) (x1 : KVal.Words S2x1200000) (x3 : FVec Ideal S100000x64 .f32) :
    KVal.agg0 x0 x1 x3 = Cert.ReferenceIdeal.Read.val_main_v29 (F := Ideal) x0 x1 x3 := by
  funext i
  obtain ⟨p, q, rfl⟩ : ∃ (p : Fin 100000) (q : Fin 64), i = ix2 p q := ⟨i 0, i 1, eq_ix2 i⟩
  unfold KVal.agg0 Cert.ReferenceIdeal.Read.val_main_v29 Cert.ReferenceIdeal.Read.val_main_v28
    Cert.ReferenceIdeal.Read.val_main_v27
  rw [mulf_apply, hostDivf_apply, spread64_apply]
  refine Eq.trans ?_ (congrArg (Ideal.div _)
    (spread64_apply (Cert.ReferenceIdeal.Read.val_main_v26 (F := Ideal) x1) p q).symm)
  rw [sum64_h0_eq, ← degMax_eq]
  exact mul_invDeg _ x1 p

/-- The first layer's output: the two products read as sums over the 64 shared coordinates, the bias row at its
    column, and the three terms regrouped. -/
theorem h1_eq (x0 : KVal.Words S100000) (x1 : KVal.Words S2x1200000) (x3 : FVec Ideal S100000x64 .f32)
    (x4 : FVec Ideal S64x128 .f32) (x5 : FVec Ideal S128 .f32) (x6 : FVec Ideal S64x128 .f32) :
    KVal.h1 x0 x1 x3 x4 x5 x6 = Cert.ReferenceIdeal.Read.val_main_v36 (F := Ideal) x0 x1 x3 x4 x5 x6 := by
  funext i
  obtain ⟨p, q, rfl⟩ : ∃ (p : Fin 100000) (q : Fin 128), i = ix2 p q := ⟨i 0, i 1, eq_ix2 i⟩
  open Cert.ReferenceIdeal.Read in
  rw [val_main_v36_apply, val_main_v35_apply, val_main_v33_apply, val_main_v30_apply, val_main_v34_apply,
    val_main_v32_apply, val_main_v31_apply, val_main_call0_v0_apply, val_main_call0_cst_apply]
  unfold KVal.h1
  show max (Cert.Sage.combineAt _ _ _ _ _ p q) _ = _
  unfold Cert.Sage.combineAt
  rw [agg0_eq, h0_eq, RowCast.shapeCast_row_apply]
  have el : ∀ k : Fin 64, Cert.ReferenceIdeal.Read.lidx_main_v30 (ix2 p q) k = ix2 p k :=
    fun k => funext fun a => match a with | ⟨0, _⟩ => rfl | ⟨1, _⟩ => rfl
  have er : ∀ k : Fin 64, Cert.ReferenceIdeal.Read.ridx_main_v30 (ix2 p q) k = ix2 k q :=
    fun k => funext fun a => match a with | ⟨0, _⟩ => rfl | ⟨1, _⟩ => rfl
  have el' : ∀ k : Fin 64, Cert.ReferenceIdeal.Read.lidx_main_v34 (ix2 p q) k = ix2 p k :=
    fun k => funext fun a => match a with | ⟨0, _⟩ => rfl | ⟨1, _⟩ => rfl
  have er' : ∀ k : Fin 64, Cert.ReferenceIdeal.Read.ridx_main_v34 (ix2 p q) k = ix2 k q :=
    fun k => funext fun a => match a with | ⟨0, _⟩ => rfl | ⟨1, _⟩ => rfl
  have eb : Cert.ReferenceIdeal.Read.idx_main_v31 (Cert.ReferenceIdeal.Read.idx_main_v32 (ix2 p q)) = ix1 q :=
    funext fun a => match a with | ⟨0, _⟩ => rfl
  simp only [el, er, el', er', eb]
  show max (_ + _ + _) _ = max (_ + _ + _) _
  rw [add_right_comm]
  rfl

end Cert.Bridge

end
-- ==== Proof.Bridge2.lean ====
/-
  The second layer of the kernel program's value is the reference's.

  The first layer's output goes through the same gather along the edges and the same scatter to the destination
  nodes in both programs. The kernel again scales the sums by the reciprocal of max(in-degree, 1) where the reference
  divides by it, and again adds the bias row after the second product where the reference adds it before. There is
  no clamp in this layer.
-/
import proofs.«172000_j70763881169321_1_alg».proof.Proof.Bridge1

noncomputable section

open scoped BigOperators

namespace Cert.Bridge

open Cert.KernelIdeal Cert.KernelIdeal.Gen Idealize.ShloMosaic Idealize.ShloMosaic.ValueIdx

/-- The per-node sums of the neighbours' first-layer features: the same scatter of the same gathered rows. -/
theorem sum128_eq (x0 : KVal.Words S100000) (x1 : KVal.Words S2x1200000) (x3 : FVec Ideal S100000x64 .f32)
    (x4 : FVec Ideal S64x128 .f32) (x5 : FVec Ideal S128 .f32) (x6 : FVec Ideal S64x128 .f32) :
    KVal.sum128 (Cert.ReferenceIdeal.Read.val_main_v36 (F := Ideal) x0 x1 x3 x4 x5 x6) x1
      = Cert.ReferenceIdeal.Read.val_main_v46 (F := Ideal) x0 x1 x3 x4 x5 x6 := rfl

/-- The mean of the neighbours' first-layer features. -/
theorem agg1_eq (x0 : KVal.Words S100000) (x1 : KVal.Words S2x1200000) (x3 : FVec Ideal S100000x64 .f32)
    (x4 : FVec Ideal S64x128 .f32) (x5 : FVec Ideal S128 .f32) (x6 : FVec Ideal S64x128 .f32) :
    KVal.agg1 x0 x1 x3 x4 x5 x6 = Cert.ReferenceIdeal.Read.val_main_v55 (F := Ideal) x0 x1 x3 x4 x5 x6 := by
  funext i
  obtain ⟨p, q, rfl⟩ : ∃ (p : Fin 100000) (q : Fin 128), i = ix2 p q := ⟨i 0, i 1, eq_ix2 i⟩
  unfold KVal.agg1 Cert.ReferenceIdeal.Read.val_main_v55 Cert.ReferenceIdeal.Read.val_main_v54
    Cert.ReferenceIdeal.Read.val_main_v53
  rw [mulf_apply, hostDivf_apply, spread128_apply]
  refine Eq.trans ?_ (congrArg (Ideal.div _)
    (spread128_apply (Cert.ReferenceIdeal.Read.val_main_v52 (F := Ideal) x1) p q).symm)
  rw [h1_eq, sum128_eq, ← degMax_eq']
  exact mul_invDeg _ x1 p

/-- The second layer's output: the two products read as sums over the 128 shared coordinates, the bias row at its
    column, and the three terms regrouped. -/
theorem z_eq (x0 : KVal.Words S100000) (x1 : KVal.Words S2x1200000) (x3 : FVec Ideal S100000x64 .f32)
    (x4 : FVec Ideal S64x128 .f32) (x5 : FVec Ideal S128 .f32) (x6 : FVec Ideal S64x128 .f32)
    (x7 : FVec Ideal S128x64 .f32) (x8 : FVec Ideal S64 .f32) (x9 : FVec Ideal S128x64 .f32) :
    KVal.z x0 x1 x3 x4 x5 x6 x7 x8 x9 = Cert.ReferenceIdeal.Read.val_main_v61 (F := Ideal) x0 x1 x3 x4 x5 x6 x7 x8 x9 := by
  funext i
  obtain ⟨p, q, rfl⟩ : ∃ (p : Fin 100000) (q : Fin 64), i = ix2 p q := ⟨i 0, i 1, eq_ix2 i⟩
  open Cert.ReferenceIdeal.Read in
  rw [val_main_v61_apply, val_main_v59_apply, val_main_v56_apply, val_main_v60_apply,
    val_main_v58_apply, val_main_v57_apply]
  unfold KVal.z
  show Cert.Sage.combineAt _ _ _ _ _ p q = _
  unfold Cert.Sage.combineAt
  rw [agg1_eq, h1_eq, RowCast.shapeCast_row_apply]
  have el : ∀ k : Fin 128, Cert.ReferenceIdeal.Read.lidx_main_v56 (ix2 p q) k = ix2 p k :=
    fun k => funext fun a => match a with | ⟨0, _⟩ => rfl | ⟨1, _⟩ => rfl
  have er : ∀ k : Fin 128, Cert.ReferenceIdeal.Read.ridx_main_v56 (ix2 p q) k = ix2 k q :=
    fun k => funext fun a => match a with | ⟨0, _⟩ => rfl | ⟨1, _⟩ => rfl
  have el' : ∀ k : Fin 128, Cert.ReferenceIdeal.Read.lidx_main_v60 (ix2 p q) k = ix2 p k :=
    fun k => funext fun a => match a with | ⟨0, _⟩ => rfl | ⟨1, _⟩ => rfl
  have er' : ∀ k : Fin 128, Cert.ReferenceIdeal.Read.ridx_main_v60 (ix2 p q) k = ix2 k q :=
    fun k => funext fun a => match a with | ⟨0, _⟩ => rfl | ⟨1, _⟩ => rfl
  have eb : Cert.ReferenceIdeal.Read.idx_main_v57 (Cert.ReferenceIdeal.Read.idx_main_v58 (ix2 p q)) = ix1 q :=
    funext fun a => match a with | ⟨0, _⟩ => rfl
  simp only [el, er, el', er', eb]
  show _ + _ + _ = _ + _ + _
  rw [add_right_comm]

end Cert.Bridge

end
-- ==== Proof.Bridge.lean ====
/-
  The decoder, and with it the whole program: the kernel program's value is the reference's result.

  Both programs gather the embedding rows of each pair's two endpoints with the same lookups of the same embeddings.
  The kernel's decoder keeps each pair's inner product ∑ₖ za(l,k)·zb(l,k) as a column and reads the column back as a
  vector; the reference multiplies the two gathered arrays entry by entry and sums each row, starting from the value
  of the float word 0, which is the real zero.
-/
import proofs.«172000_j70763881169321_1_alg».proof.Proof.Bridge2

noncomputable section

open scoped BigOperators

namespace Cert.Bridge

open Cert.KernelIdeal Cert.KernelIdeal.Gen Idealize.ShloMosaic Idealize.ShloMosaic.ValueIdx

/-- The rows of the embeddings at the pairs' first endpoints: the same lookup at the same indices. -/
theorem rowsA_eq (x0 : KVal.Words S100000) (x1 : KVal.Words S2x1200000) (x2 : KVal.Words S2x500000) (x3 : FVec Ideal S100000x64 .f32)
    (x4 : FVec Ideal S64x128 .f32) (x5 : FVec Ideal S128 .f32) (x6 : FVec Ideal S64x128 .f32)
    (x7 : FVec Ideal S128x64 .f32) (x8 : FVec Ideal S64 .f32) (x9 : FVec Ideal S128x64 .f32) :
    KVal.rowsOf (Cert.ReferenceIdeal.Read.val_main_v61 (F := Ideal) x0 x1 x3 x4 x5 x6 x7 x8 x9) (KVal.idxA x2)
      = Cert.ReferenceIdeal.Read.val_main_v70 (F := Ideal) x0 x1 x2 x3 x4 x5 x6 x7 x8 x9 := rfl

/-- The rows at the pairs' second endpoints. -/
theorem rowsB_eq (x0 : KVal.Words S100000) (x1 : KVal.Words S2x1200000) (x2 : KVal.Words S2x500000) (x3 : FVec Ideal S100000x64 .f32)
    (x4 : FVec Ideal S64x128 .f32) (x5 : FVec Ideal S128 .f32) (x6 : FVec Ideal S64x128 .f32)
    (x7 : FVec Ideal S128x64 .f32) (x8 : FVec Ideal S64 .f32) (x9 : FVec Ideal S128x64 .f32) :
    KVal.rowsOf (Cert.ReferenceIdeal.Read.val_main_v61 (F := Ideal) x0 x1 x3 x4 x5 x6 x7 x8 x9) (KVal.idxB x2)
      = Cert.ReferenceIdeal.Read.val_main_v79 (F := Ideal) x0 x1 x2 x3 x4 x5 x6 x7 x8 x9 := rfl

/-- The decoder's column at pair l is the inner product of the two rows l. -/
theorem dots_apply (za zb : Cert.Sage.Mat 500000 64) (l : Fin 500000) :
    Cert.Sage.dots za zb (ix2 l (0 : Fin 1)) = ∑ k : Fin 64, za (ix2 l k) * zb (ix2 l k) := rfl

/-- The kernel program's value is the reference's result. -/
theorem result_eq (x0 : KVal.Words S100000) (x1 : KVal.Words S2x1200000) (x2 : KVal.Words S2x500000) (x3 : FVec Ideal S100000x64 .f32) (x4 : FVec Ideal S64x128 .f32) (x5 : FVec Ideal S128 .f32) (x6 : FVec Ideal S64x128 .f32) (x7 : FVec Ideal S128x64 .f32) (x8 : FVec Ideal S64 .f32) (x9 : FVec Ideal S128x64 .f32) :
    Cert.KernelIdeal.KVal.result x0 x1 x2 x3 x4 x5 x6 x7 x8 x9
      = Cert.ReferenceIdeal.Read.val_main_v81 (F := Ideal) x0 x1 x2 x3 x4 x5 x6 x7 x8 x9 := by
  funext i
  obtain ⟨l, rfl⟩ : ∃ l : Fin 500000, i = ix1 l := ⟨i 0, eq_ix1 i⟩
  rw [Cert.ReferenceIdeal.Read.val_main_v81_apply, Cert.ReferenceIdeal.Read.val_main_cst_16_apply,
    Ideal.ofBits_def, Ideal.ofBits_zero_f32, zero_add]
  unfold KVal.result
  rw [ColumnCast.shapeCast_uncol_apply, dots_apply, z_eq, rowsA_eq, rowsB_eq]
  refine Finset.sum_congr rfl fun k _ => ?_
  have ei : Cert.ReferenceIdeal.Read.idx_main_v81 (ix1 l) k = ix2 l k :=
    funext fun a => match a with | ⟨0, _⟩ => rfl | ⟨1, _⟩ => rfl
  rw [ei, Cert.ReferenceIdeal.Read.val_main_v80_apply, Ideal.mulf_def]

end Cert.Bridge

end
-- ==== Proof.lean ====
/-
  The certificate: a two-layer graph-convolution link predictor as a tiled kernel program, against its array
  reference, over the extended reals.

  Both programs look node features up by id, and for each of two layers sum each node's in-neighbours' features
  (a gather along the edges' sources, an additive scatter to their destinations) and average by max(in-degree, 1);
  they combine the average A and the node's own features H as A·Wl + H·Wr + b (the first layer clamped below at
  zero), and score each queried pair of nodes by the inner product of the two nodes' second-layer rows.

  The kernel program multiplies the sums by the reciprocal 1 / max(deg, 1) where the reference divides by
  max(deg, 1): on the extended reals x · (1 / d) = x / d for every d ≠ 0, and max(deg, 1) ≥ 1. It adds the bias
  after both products where the reference adds it between them: addition is commutative and associative on the
  extended reals. Its three tiled regions compute the two combinations and the inner products tile by tile, each
  tile a restriction of one whole-array function; the matrix products into a zero accumulator and the lane sums are
  the same finite sums as the reference's contractions and reduction. No finiteness of the inputs is used.

  The frames: the kernel programs' are the generated frame certificates; the reference has no kernel and its frame
  is its run with the result dropped. Nothing was rewritten by the idealization, so `preserves` is trivial.
-/
import proofs.«172000_j70763881169321_1_alg».proof.Defs
import proofs.«172000_j70763881169321_1_alg».proof.Proof.Gen.Kernel
import proofs.«172000_j70763881169321_1_alg».proof.Proof.Gen.Kernel.Frame
import proofs.«172000_j70763881169321_1_alg».proof.Proof.Gen.KernelIdeal
import proofs.«172000_j70763881169321_1_alg».proof.Proof.Gen.KernelIdeal.Frame
import proofs.«172000_j70763881169321_1_alg».proof.Proof.Gen.ReferenceIdeal
import proofs.«172000_j70763881169321_1_alg».proof.Proof.Gen.ReferenceIdeal.Run
import proofs.«172000_j70763881169321_1_alg».proof.Proof.Gen.ReferenceIdeal.Read
import proofs.«172000_j70763881169321_1_alg».proof.Proof.Gen.Pre_finite_inputs
import proofs.«172000_j70763881169321_1_alg».proof.Proof.KRun
import proofs.«172000_j70763881169321_1_alg».proof.Proof.KStages
import proofs.«172000_j70763881169321_1_alg».proof.Proof.Region0
import proofs.«172000_j70763881169321_1_alg».proof.Proof.Region1
import proofs.«172000_j70763881169321_1_alg».proof.Proof.Region2
import proofs.«172000_j70763881169321_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the kernel's composed value of the argument arrays: the kernel program by its
    run read boundary by boundary, the reference by its run's term, equal to that value stage by stage. -/
theorem algebraic : Cert.algebraic_KernelIdeal_ReferenceIdeal := by
  intro m ρ m' ρ' _ hagree
  refine ⟨fun c => Cert.KernelIdeal.KVal.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KStages.W7_v68 m ρ c
          Cert.KernelIdeal.Region0.final Cert.KernelIdeal.Region1.final Cert.KernelIdeal.Region2.final), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.Bridge.result_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
